-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : IVec S100000 32) (main_arg3 : IVec S100000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S20000x64 : Shape := ⟨2, ![20000, 64]⟩
abbrev S1700000x64 : Shape := ⟨2, ![1700000, 64]⟩

abbrev nBuf : Space → Nat
  | .hbm => 106
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000x64, .f32⟩
  | .hbm, ⟨51, _⟩ => ⟨S1700000x64, .f32⟩
  | .hbm, ⟨52, _⟩ => ⟨S1700000x64, .f32⟩
  | .hbm, ⟨53, _⟩ => ⟨S_, .f32⟩
  | .hbm, ⟨54, _⟩ => ⟨S100000x64, .f32⟩
  | .hbm, ⟨55, _⟩ => ⟨S1700000x1, .i32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1700000, .i32⟩
  | .hbm, ⟨60, _⟩ => ⟨S1700000, .i1⟩
  | .hbm, ⟨61, _⟩ => ⟨S_, .i32⟩
  | .hbm, ⟨62, _⟩ => ⟨S1700000, .i32⟩
  | .hbm, ⟨63, _⟩ => ⟨S1700000, .i32⟩
  | .hbm, ⟨64, _⟩ => ⟨S1700000, .i32⟩
  | .hbm, ⟨65, _⟩ => ⟨S1700000x1, .i32⟩
  | .hbm, ⟨66, _⟩ => ⟨S1700000x64, .f32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S100000x64, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x64, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S100000x64, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x64, .f32⟩
  | .hbm, ⟨99, _⟩ => ⟨S1700000x64, .f32⟩
  | .hbm, ⟨100, _⟩ => ⟨S1700000x64, .f32⟩
  | .hbm, ⟨101, _⟩ => ⟨S_, .f32⟩
  | .hbm, ⟨102, _⟩ => ⟨S100000x64, .f32⟩
  | .hbm, ⟨103, _⟩ => ⟨S1700000x1, .i32⟩
  | .hbm, ⟨104, _⟩ => ⟨S100000x64, .f32⟩
  | .hbm, ⟨105, _⟩ => ⟨S100000x64, .f32⟩
  | .local _ .vmem, ⟨0, _⟩ => ⟨S20000x64, .f32⟩
  | .local _ .vmem, ⟨1, _⟩ => ⟨S20000x64, .f32⟩
  | .local _ .vmem, ⟨2, _⟩ => ⟨S64x64, .f32⟩
  | .local _ .vmem, ⟨3, _⟩ => ⟨S20000x64, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S1x64, .f32⟩
  | .local _ .vmem, ⟨8, _⟩ => ⟨S64x64, .f32⟩
  | .local _ .vmem, ⟨9, _⟩ => ⟨S20000x64, .f32⟩
  | .local _ .vmem, ⟨10, _⟩ => ⟨S20000x64, .f32⟩
  | .local _ .vmem, ⟨11, _⟩ => ⟨S20000x64, .f32⟩
  | .local _ .vmem, ⟨12, _⟩ => ⟨S20000x64, .f32⟩
  | .local _ .vmem, ⟨13, _⟩ => ⟨S1x64, .f32⟩
  | .local _ .vmem, ⟨14, _⟩ => ⟨S64x64, .f32⟩
  | .local _ .vmem, ⟨15, _⟩ => ⟨S20000x64, .f32⟩
  | .local _ .vmem, ⟨16, _⟩ => ⟨S20000x64, .f32⟩
  | .local _ .vmem, ⟨17, _⟩ => ⟨S20000x64, .f32⟩
  | .local _ .vmem, ⟨18, _⟩ => ⟨S20000x64, .f32⟩
  | .local _ .vmem, ⟨19, _⟩ => ⟨S1x64, .f32⟩
  | .local _ .vmem, ⟨20, _⟩ => ⟨S64x64, .f32⟩
  | .local _ .vmem, ⟨21, _⟩ => ⟨S20000x64, .f32⟩
  | .local _ .vmem, ⟨22, _⟩ => ⟨S20000x64, .f32⟩
  | .local _ .vmem, ⟨23, _⟩ => ⟨S20000x64, .f32⟩
  | .local _ .vmem, ⟨24, _⟩ => ⟨S20000x64, .f32⟩
  | .local _ .vmem, ⟨25, _⟩ => ⟨S1x64, .f32⟩
  | .local _ .vmem, ⟨26, _⟩ => ⟨S20000x64, .f32⟩
  | .local _ .vmem, ⟨27, _⟩ => ⟨S20000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_7 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_10 : Ref sig .tc := ⟨.hbm, 74, rfl⟩
abbrev main_v56 : Ref sig .tc := ⟨.hbm, 75, rfl⟩
abbrev main_v57 : Ref sig .tc := ⟨.hbm, 76, rfl⟩
abbrev main_c_11 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_15 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem3_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S20000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S20000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S20000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S20000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S20000x64_S20000x64_0_0 : ∀ a, (![0, 0] : Fin 2 → Nat) a + S20000x64.size a ≤ S20000x64.size a
  h_S20000x64 : 0 < S20000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S20000x64_S20000x64 : S20000x64.ShapeCasts S20000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20000x64 : S1x64.Broadcasts S20000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S20000x64_S64x64_S20000x64_1_0_0_1_n_n_wf : DotDims.WF S20000x64 S64x64 S20000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S100000x64.size a
  hwx0_0 : ∀ i : grid0.Coords, EltTy.bits .f32 = 32 ∨ (Rect.block (s := S100000x64) S20000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S100000x64.size a
  hwx0_2 : ∀ i : grid0.Coords, EltTy.bits .f32 = 32 ∨ (Rect.block (s := S100000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S100000x64.size a
  hwx1_0 : ∀ i : grid1.Coords, EltTy.bits .f32 = 32 ∨ (Rect.block (s := S100000x64) S20000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S20000x64.size a ≤ S100000x64.size a
  hwx1_3 : ∀ i : grid1.Coords, EltTy.bits .f32 = 32 ∨ (Rect.block (s := S100000x64) S20000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S100000x64.size a
  hwx2_0 : ∀ i : grid2.Coords, EltTy.bits .f32 = 32 ∨ (Rect.block (s := S100000x64) S20000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S20000x64.size a ≤ S100000x64.size a
  hwx2_3 : ∀ i : grid2.Coords, EltTy.bits .f32 = 32 ∨ (Rect.block (s := S100000x64) S20000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S20000x64.size a ≤ S100000x64.size a
  hwx3_0 : ∀ i : grid3.Coords, EltTy.bits .f32 = 32 ∨ (Rect.block (s := S100000x64) S20000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S20000x64.size a ≤ S100000x64.size a
  hwx3_3 : ∀ i : grid3.Coords, EltTy.bits .f32 = 32 ∨ (Rect.block (s := S100000x64) S20000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S20000x64.size a ≤ S100000x64.size a
  hwx4_0 : ∀ i : grid4.Coords, EltTy.bits .f32 = 32 ∨ (Rect.block (s := S100000x64) S20000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S20000x64.size a ≤ S100000x64.size a
  hwx4_2 : ∀ i : grid4.Coords, EltTy.bits .f32 = 32 ∨ (Rect.block (s := S100000x64) S20000x64.size (cc4_transform_2 i) (hinb4_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S20000x64_S64x64_S20000x64_1_0_0_1_n_n : DotDims S20000x64 S64x64 S20000x64 where
  lhsContracting := [1]
  rhsContracting := [0]
  lhsNonContracting := [0]
  rhsNonContracting := [1]
  lhsBatch := []
  rhsBatch := []
  wf := dot_S20000x64_S64x64_S20000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S20000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S20000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v67) S20000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v28) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v68) S20000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v80) S20000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v81) S20000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 128
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S100000, .i32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S1700000x1, .f32⟩
  | .hbm, ⟨40, _⟩ => ⟨S100000x64, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x64, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x64, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x64, .f32⟩
  | .hbm, ⟨95, _⟩ => ⟨S1700000x64, .f32⟩
  | .hbm, ⟨96, _⟩ => ⟨S_, .f32⟩
  | .hbm, ⟨97, _⟩ => ⟨S100000x64, .f32⟩
  | .hbm, ⟨98, _⟩ => ⟨S1700000x1, .i32⟩
  | .hbm, ⟨99, _⟩ => ⟨S100000x64, .f32⟩
  | .hbm, ⟨100, _⟩ => ⟨S1x64, .f32⟩
  | .hbm, ⟨101, _⟩ => ⟨S100000x64, .f32⟩
  | .hbm, ⟨102, _⟩ => ⟨S100000x64, .f32⟩
  | .hbm, ⟨103, _⟩ => ⟨S_, .f32⟩
  | .hbm, ⟨104, _⟩ => ⟨S100000x64, .f32⟩
  | .hbm, ⟨105, _⟩ => ⟨S100000x64, .f32⟩
  | .hbm, ⟨106, _⟩ => ⟨S100000x64, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x64, .f32⟩
  | .hbm, ⟨116, _⟩ => ⟨S1700000x64, .f32⟩
  | .hbm, ⟨117, _⟩ => ⟨S1700000x64, .f32⟩
  | .hbm, ⟨118, _⟩ => ⟨S_, .f32⟩
  | .hbm, ⟨119, _⟩ => ⟨S100000x64, .f32⟩
  | .hbm, ⟨120, _⟩ => ⟨S1700000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S100000x64, .f32⟩
  | .hbm, ⟨125, _⟩ => ⟨S_, .f32⟩
  | .hbm, ⟨126, _⟩ => ⟨S100000x64, .f32⟩
  | .hbm, ⟨127, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_c_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_call1_cst : Ref sig .tc := ⟨.hbm, 81, rfl⟩
abbrev main_call1_v0 : Ref sig .tc := ⟨.hbm, 82, rfl⟩
abbrev main_v61 : Ref sig .tc := ⟨.hbm, 83, rfl⟩
abbrev main_v62 : Ref sig .tc := ⟨.hbm, 84, rfl⟩
abbrev main_c_10 : Ref sig .tc := ⟨.hbm, 85, rfl⟩
abbrev main_v63 : Ref sig .tc := ⟨.hbm, 86, rfl⟩
abbrev main_v64 : Ref sig .tc := ⟨.hbm, 87, rfl⟩
abbrev main_c_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_12 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call2_cst : Ref sig .tc := ⟨.hbm, 103, rfl⟩
abbrev main_call2_v0 : Ref sig .tc := ⟨.hbm, 104, rfl⟩
abbrev main_v78 : Ref sig .tc := ⟨.hbm, 105, rfl⟩
abbrev main_v79 : Ref sig .tc := ⟨.hbm, 106, rfl⟩
abbrev main_c_13 : Ref sig .tc := ⟨.hbm, 107, rfl⟩
abbrev main_v80 : Ref sig .tc := ⟨.hbm, 108, rfl⟩
abbrev main_v81 : Ref sig .tc := ⟨.hbm, 109, rfl⟩
abbrev main_c_14 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_15 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_call3_cst : Ref sig .tc := ⟨.hbm, 125, rfl⟩
abbrev main_call3_v0 : Ref sig .tc := ⟨.hbm, 126, rfl⟩
abbrev main_v95 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Spec.lean ====
/-
  The graph-convolution stack as one function of the argument arrays.

  With self loops appended to the edge list, `src` and `dst` are the source and target node of each of the 1,700,000
  edges; the in-degree of a node is the number of edges into it, `deg`; an edge `e` carries the weight
  `deg(src e)^(-1/2) · deg(dst e)^(-1/2)`. One layer sends a node-feature matrix `h` to

      agg h = Σ over edges e into a node of (row `src e` of h) · weight e,

  and the whole stack is four times `x ↦ relu (agg (x · W) + b)`. The edge lists, the degrees and the aggregation are
  written with the host's operations: a slice and a concatenate for the edge lists, a scatter-add of ones for the
  degrees, a gather of rows and a scatter-add of the weighted rows for the aggregation.
-/
import proofs.«158501_j75230647157513_1_alg».proof.Proof.Gen.ReferenceIdeal
import Idealize.ShloMosaic.PureOps.Ideal

noncomputable section

namespace Cert.Gcn

open Idealize.ShloMosaic Cert.ReferenceIdeal Cert.ReferenceIdeal.Gen

variable {F : FTy → Type} [FloatOps F]

/-- The source node of every edge: row 0 of the edge list, then each node once (its self loop). -/
def src (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The target node of every edge: row 1 of the edge list, then each node once. -/
def dst (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node number read as a row number: a negative one counts from the end. -/
def wrap (r : (⟨S1700000, .i32⟩ : BufTy).Contents (Elt F)) : (⟨S1700000, .i32⟩ : BufTy).Contents (Elt F) :=
  select (cmpi .slt r (broadcastInDim S1700000 ![] bcast_S_S1700000 (constantI S_ 32 0#32))) (addi r (broadcastInDim S1700000 ![] bcast_S_S1700000 (constantI S_ 32 100000#32))) r

/-- `deg^(-1/2)` per node: one is added at the target of every edge, then the reciprocal square root is taken. -/
def dinv (d : (⟨S1700000, .i32⟩ : BufTy).Contents (Elt F)) : (⟨S100000, .f32⟩ : BufTy).Contents (Elt F) :=
  Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))

/-- The weight of every edge, as a column: `deg(src)^(-1/2) · deg(dst)^(-1/2)`. -/
def weight (s d : (⟨S1700000, .i32⟩ : BufTy).Contents (Elt F)) : (⟨S1700000x1, .f32⟩ : BufTy).Contents (Elt F) :=
  broadcastInDim S1700000x1 ![0] bcast_S1700000_S1700000x1_0 (mulf (Host.gather gather_S100000_S1700000x1_S1700000_n_0_n_n_0_1_1 (dinv d) (broadcastInDim S1700000x1 ![0] bcast_S1700000_S1700000x1_0 (wrap s))) (Host.gather gather_S100000_S1700000x1_S1700000_n_0_n_n_0_1_1 (dinv d) (broadcastInDim S1700000x1 ![0] bcast_S1700000_S1700000x1_0 (wrap d))))

/-- One aggregation: every edge takes its source's row of `h` times its weight, and the rows are summed at the
    edge's target. -/
def agg (s d : (⟨S1700000, .i32⟩ : BufTy).Contents (Elt F)) (w : (⟨S1700000x1, .f32⟩ : BufTy).Contents (Elt F))
    (h : (⟨S100000x64, .f32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (broadcastInDim S1700000x1 ![0] bcast_S1700000_S1700000x1_0 (wrap s))) (broadcastInDim S1700000x64 ![0, 1] bcast_S1700000x1_S1700000x64_0_1 w))

/-- The bias row added to every row, then the positive part. -/
def biasRelu (a : (⟨S100000x64, .f32⟩ : BufTy).Contents (Elt F)) (b : (⟨S1x64, .f32⟩ : BufTy).Contents (Elt F)) :
    (⟨S100000x64, .f32⟩ : BufTy).Contents (Elt F) :=
  maximumf (addf a (broadcastInDim S100000x64 ![0, 1] bcast_S1x64_S100000x64_0_1 b)) (broadcastInDim S100000x64 ![] bcast_S_S100000x64 (constant S_ .f32 0x00000000#32))

/-- The bias vector as a one-row matrix. -/
def biasRow (b : (⟨S64, .f32⟩ : BufTy).Contents (Elt F)) : (⟨S1x64, .f32⟩ : BufTy).Contents (Elt F) :=
  broadcastInDim S1x64 ![1] bcast_S64_S1x64_1 b

/-- The node features times the weight matrix. -/
def project (x : (⟨S100000x64, .f32⟩ : BufTy).Contents (Elt F)) (W : (⟨S64x64, .f32⟩ : BufTy).Contents (Elt F)) :
    (⟨S100000x64, .f32⟩ : BufTy).Contents (Elt F) :=
  Host.dotGeneral dot_S100000x64_S64x64_S100000x64_1_0_0_1_n_n none x W

/-- One layer over fixed edges, weights, weight matrix and bias row. -/
def layer (s d : (⟨S1700000, .i32⟩ : BufTy).Contents (Elt F)) (w : (⟨S1700000x1, .f32⟩ : BufTy).Contents (Elt F))
    (W : (⟨S64x64, .f32⟩ : BufTy).Contents (Elt F)) (b : (⟨S1x64, .f32⟩ : BufTy).Contents (Elt F))
    (x : (⟨S100000x64, .f32⟩ : BufTy).Contents (Elt F)) : (⟨S100000x64, .f32⟩ : BufTy).Contents (Elt F) :=
  biasRelu (agg s d w (project x W)) b

/-- The whole stack: four layers with the same weight matrix and bias. -/
def stack (x : (⟨S100000x64, .f32⟩ : BufTy).Contents (Elt F)) (e : (⟨S2x1600000, .i32⟩ : BufTy).Contents (Elt F))
    (W : (⟨S64x64, .f32⟩ : BufTy).Contents (Elt F)) (b : (⟨S64, .f32⟩ : BufTy).Contents (Elt F)) :
    (⟨S100000x64, .f32⟩ : BufTy).Contents (Elt F) :=
  layer (src e) (dst e) (weight (src e) (dst e)) W (biasRow b)
    (layer (src e) (dst e) (weight (src e) (dst e)) W (biasRow b)
      (layer (src e) (dst e) (weight (src e) (dst e)) W (biasRow b)
        (layer (src e) (dst e) (weight (src e) (dst e)) W (biasRow b) x)))

end Cert.Gcn

end
-- ==== Proof.RefStack.lean ====
/-
  The reference computes the stack: the composed term of its host operations is `Gcn.stack` of its arguments.
-/
import proofs.«158501_j75230647157513_1_alg».proof.Proof.Spec
import proofs.«158501_j75230647157513_1_alg».proof.Proof.Gen.ReferenceIdeal.Run

noncomputable section

namespace Cert.Gcn

open Idealize.ShloMosaic Idealize.ShloMosaic.TcCoe Idealize.SL.Sem Cert.ReferenceIdeal Cert.ReferenceIdeal.Gen Cert.ReferenceIdeal.Value

variable {F : FTy → Type} [FloatOps F]

set_option maxRecDepth 8192 in
/-- The reference's result is the stack of its four arguments it reads. -/
theorem reference_eq (m : (ℓ : Loc nD τ sig) → Buf (Elt F) ℓ) (c : Dev nD) :
    res_main_v95 m c = stack (m ((c.tc : Thread nD τ).loc main_arg0)) (m ((c.tc : Thread nD τ).loc main_arg1))
      (m ((c.tc : Thread nD τ).loc main_arg4)) (m ((c.tc : Thread nD τ).loc main_arg5)) := by
  unfold res_main_v95 stack layer biasRelu agg project biasRow weight dinv wrap src dst
  rfl

end Cert.Gcn

end
-- ==== Proof.BiasRelu.lean ====
/-
  The bias-and-relu step at an entry: entry `(P, n)` of `relu (a + b)`, the bias row `b` added to every row of `a`,
  is `max (a (P, n) + b (0, n)) 0` — the row broadcast reads the bias at its column and the zero is the same number
  at every entry.
-/
import proofs.«158501_j75230647157513_1_alg».proof.Proof.Spec
import Idealize.ShloMosaic.Lib.Pipeline.Value
import Idealize.ShloMosaic.Lib.ValueIdx

noncomputable section

open Idealize.ShloMosaic Idealize.ShloMosaic.ValueIdx

namespace Cert.Gcn

open Cert.ReferenceIdeal

/-- Entry `(P, n)` of the bias-and-relu step. -/
theorem biasRelu_apply (a : (⟨S100000x64, .f32⟩ : BufTy).Contents (Elt Ideal)) (b : (⟨S1x64, .f32⟩ : BufTy).Contents (Elt Ideal))
    (P : Fin 100000) (n : Fin 64) :
    biasRelu a b (ix2 P n) = max (a (ix2 P n) + b (ix2 (0 : Fin 1) n)) (Ideal.ofBits .f32 0x00000000#32) := by
  unfold biasRelu
  show max (a (ix2 P n) + broadcastInDim S100000x64 ![0, 1] _ b (ix2 P n)) _ = _
  rw [broadcastInDim_apply _ _ b (ix2 P n) (ix2 (0 : Fin 1) n) (fun a => by
    match a with
    | ⟨0, _⟩ => rfl
    | ⟨1, _⟩ => rfl)]
  rfl

/-- The bias vector reshaped to one row is the bias vector broadcast to one row. -/
theorem reshape_eq_biasRow (b : (⟨S64, .f32⟩ : BufTy).Contents (Elt Ideal)) (h : S64.ShapeCasts S1x64) :
    shapeCast S1x64 b h = biasRow b := by
  funext j
  unfold biasRow
  rw [shapeCast_apply b h j (ix1 (j 1)) (by
      rw [Shape.rowMajor_val_one, Shape.rowMajor_val_two]
      have h0 : (j 0).val < 1 := (j 0).isLt
      show (j 1).val = (j 0).val * 64 + (j 1).val
      omega),
    broadcastInDim_apply _ _ b j (ix1 (j 1)) (fun a => by
      match a with
      | ⟨0, _⟩ => rfl)]

end Cert.Gcn

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«158501_j75230647157513_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.ProjectRegion.lean ====
/-
  The first matrix product. The node features `x : [100000, 64]` are multiplied by the weight matrix `W : [64, 64]`
  twenty thousand rows at a time: grid point `t` takes rows `20000 t … 20000 t + 19999` of `x` and all of `W`, and
  writes rows `20000 t … 20000 t + 19999` of the product. Over the extended reals entry `(p, q)` of a block's
  product is `Σ n, x (20000 t + p, n) · W (n, q)`, which is entry `(20000 t + p, q)` of the whole product `x · W`:
  a row of a product depends on that row of the left factor alone. The five blocks tile the rows, so the array
  ends holding `x · W`.
-/
import proofs.«158501_j75230647157513_1_alg».proof.Proof.Gen.KernelIdeal.Frame
import proofs.«158501_j75230647157513_1_alg».proof.Proof.Spec
import proofs.«158501_j75230647157513_1_alg».proof.Proof.LibDenseHost
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Project

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- Entry `(p, q)` of a block's product is the sum over the 64 columns of the block's row `p` times `W`'s column `q`. -/
theorem block_product (x0 : Vec Ideal S20000x64 .f32) (x1 : Vec Ideal S64x64 .f32) (p : Fin 20000) (q : Fin 64) :
    k0_pay1 (F := Ideal) x0 x1 (ix2 p q) = ∑ n : Fin 64, x0 (ix2 p n) * x1 (ix2 n q) := by
  unfold k0_pay1
  exact DenseBlock.matmul_zero_apply (K := 20000) (N := 64) (Q := 64)
    Cert.KernelIdeal.Gen.dot_S20000x64_S64x64_S20000x64_1_0_0_1_n_n_wf
    (truncf .bf16 x0 bitsLt_bf16_f32) (truncf .bf16 x1 bitsLt_bf16_f32) p q

/-- Where each window's block sits at grid point `t`: the feature and the product blocks at row block `t`, the
    weight matrix whole. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 5 := lt_of_lt_of_eq t.isLt N_0

/-- The feature block at point `t` is rows `20000 t …` of the features. -/
theorem feature_block (c : Dev nD) (t : Fin cfg0.N) (y : S20000x64.Idx) (k : S100000x64.Idx)
    (hk0 : (k 0).val = t.val * 20000 + (y 0).val) (hk1 : (k 1).val = (y 1).val) :
    (iblk0 V c 0 t : Vec Ideal S20000x64 .f32) y = (V c main_arg0 : S100000x64.Idx → Elt Ideal .f32) k := by
  obtain ⟨e0, e1, -⟩ := block_index t
  unfold iblk0
  rw [View.read_apply]
  show V c main_arg0 _ = V c main_arg0 _
  refine congrArg _ (funext fun a => Fin.ext ?_)
  match a with
  | ⟨0, _⟩ => show win0_0.index t (0 : Fin 2) * 20000 + 1 * (y 0).val = (k 0).val; rw [e0, hk0]; omega
  | ⟨1, _⟩ => show win0_0.index t (1 : Fin 2) * 64 + 1 * (y 1).val = (k 1).val; rw [e1, hk1]; omega

/-- The weight block at every point is the weight matrix. -/
theorem weight_block (c : Dev nD) (t : Fin cfg0.N) (y : S64x64.Idx) :
    (iblk0 V c 1 t : Vec Ideal S64x64 .f32) y = (V c main_arg4 : S64x64.Idx → Elt Ideal .f32) y := by
  obtain ⟨-, -, e2, e3, -⟩ := block_index t
  unfold iblk0
  rw [View.read_apply]
  show V c main_arg4 _ = V c main_arg4 _
  refine congrArg _ (funext fun a => Fin.ext ?_)
  match a with
  | ⟨0, _⟩ => show win0_1.index t (0 : Fin 2) * 64 + 1 * (y 0).val = (y 0).val; rw [e2]; omega
  | ⟨1, _⟩ => show win0_1.index t (1 : Fin 2) * 64 + 1 * (y 1).val = (y 1).val; rw [e3]; omega

/-- What point `t` writes back is block `t` of the whole product. -/
theorem flushed_eq (c : Dev nD) (t : Fin cfg0.N) :
    (dat0 V c).flushed 2 t = ((cfg0.win 2).blk t).view.read (Elt Ideal) (Gcn.project (V c main_arg0) (V c main_arg4)) := by
  show (cfg0.win 2).cut (grid0.coords t) ((dat0 V c).after 2 t) = _
  rw [after0_2]
  unfold out0_2
  rw [View.canon_unit_zero zeros]
  simp only [View.ld_unit_zero (S := S20000x64) zeros, View.ld_unit_zero (S := S64x64) zeros]
  funext j
  obtain ⟨p, q, rfl⟩ : ∃ (p : Fin 20000) (q : Fin 64), j = ix2 p q := ⟨j 0, j 1, eq_ix2 j⟩
  have ht := point_lt t
  have hp : t.val * 20000 + p.val < 100000 := by have := p.isLt; omega
  show k0_pay1 (iblk0 V c 0 t) (iblk0 V c 1 t) (ix2 p q)
    = Gcn.project (V c main_arg0) (V c main_arg4) (((cfg0.win 2).blk t).view.emb (ix2 p q))
  have hemb : ((cfg0.win 2).blk t).view.emb (ix2 p q) = ix2 (⟨t.val * 20000 + p.val, hp⟩ : Fin 100000) q := by
    obtain ⟨-, -, -, -, e4, e5⟩ := block_index t
    refine funext fun a => Fin.ext ?_
    match a with
    | ⟨0, _⟩ => show win0_2.index t (0 : Fin 2) * 20000 + 1 * p.val = t.val * 20000 + p.val; rw [e4]; omega
    | ⟨1, _⟩ => show win0_2.index t (1 : Fin 2) * 64 + 1 * q.val = q.val; rw [e5]; omega
  rw [hemb]
  refine (block_product _ _ p q).trans ?_
  unfold Gcn.project
  refine Eq.trans ?_ (DenseBlock.dotGeneral_apply_ix2 (K := 100000) (N := 64) (Q := 64)
    Cert.ReferenceIdeal.Gen.dot_S100000x64_S64x64_S100000x64_1_0_0_1_n_n_wf .single _ _ _ q).symm
  refine Finset.sum_congr rfl fun n _ => ?_
  rw [feature_block V c t (ix2 p n) (ix2 (⟨t.val * 20000 + p.val, hp⟩ : Fin 100000) n) rfl rfl, weight_block V c t (ix2 n q)]

/-- Every row of the product lies in the block of the point its number divided by 20000 names. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 20000 :=
    ⟨⟨(i 0).val / 20000, lt_of_lt_of_eq (show (i 0).val / 20000 < 5 by omega) N_0.symm⟩, rfl⟩
  refine ⟨t, flush0_2 t, ?_⟩
  show i ∈ ((View.whole main_v29).slice (win0_2.rect t)).set
  rw [View.set_slice_whole, Rect.mem_set_unit]
  obtain ⟨-, -, -, -, e4, e5⟩ := block_index t
  intro a
  match a with
  | ⟨0, _⟩ =>
    show win0_2.index t (0 : Fin 2) * 20000 ≤ (i 0).val ∧ (i 0).val < win0_2.index t (0 : Fin 2) * 20000 + 20000
    rw [e4, ht]; omega
  | ⟨1, _⟩ =>
    show win0_2.index t (1 : Fin 2) * 64 ≤ (i 1).val ∧ (i 1).val < win0_2.index t (1 : Fin 2) * 64 + 64
    rw [e5]; omega

/-- The array the first pallas_call leaves: the features times the weight matrix, as the call found them. -/
theorem final (c : Dev nD) : (dat0 V c).arrAt 2 cfg0.N = Gcn.project (V c main_arg0) (V c main_arg4) :=
  (dat0 V c).arrAt_eq_of_cover 2 _ (fun t _ => flushed_eq V c t) covered

end Cert.KernelIdeal.Project

end
-- ==== Proof.LayerRegion1.lean ====
/-
  A middle pallas_call (number 1 of the five): bias, relu, then the matrix product, twenty thousand rows at a time.
  Grid point `t` takes rows `20000 t … 20000 t + 19999` of the aggregated features `a`, the bias row `b` and the
  weight matrix `W`, and writes the same rows of `relu (a + b) · W`. Entry `(p, q)` of a block's result is
  `Σ n, max (a (20000 t + p, n) + b (0, n)) 0 · W (n, q)`: entry `(20000 t + p, q)` of the whole
  `relu (a + b) · W`, since both the bias-and-relu step and a row of a product look at one row of `a` only. The five
  blocks tile the rows.
-/
import proofs.«158501_j75230647157513_1_alg».proof.Proof.Gen.KernelIdeal.Frame
import proofs.«158501_j75230647157513_1_alg».proof.Proof.BiasRelu
import proofs.«158501_j75230647157513_1_alg».proof.Proof.LibDenseHost
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer1

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The body's result as vectors: the product of the clamped, biased block with the weight block. -/
theorem body_eq (x0 : Vec Ideal S20000x64 .f32) (x1 : Vec Ideal S1x64 .f32) (x2 : Vec Ideal S64x64 .f32) :
    k1_pay1 (F := Ideal) x0 x1 x2
      = matmul dot_S20000x64_S64x64_S20000x64_1_0_0_1_n_n none
          (truncf .bf16 (maximumf (addf x0 (broadcastTo S20000x64 x1 broadcasts_S1x64_S20000x64))
            (broadcast S20000x64 (Scalar.ofBits .f32 0x00000000#32))) bitsLt_bf16_f32)
          (truncf .bf16 x2 bitsLt_bf16_f32) (constant S20000x64 .f32 0x00000000#32) := by
  unfold k1_pay1
  simp only [shapeCast_self]

/-- Entry `(p, q)` of a block's result. -/
theorem block_entry (x0 : Vec Ideal S20000x64 .f32) (x1 : Vec Ideal S1x64 .f32) (x2 : Vec Ideal S64x64 .f32)
    (p : Fin 20000) (q : Fin 64) :
    k1_pay1 (F := Ideal) x0 x1 x2 (ix2 p q)
      = ∑ n : Fin 64, max (x0 (ix2 p n) + x1 (ix2 (0 : Fin 1) n)) (Ideal.ofBits .f32 0x00000000#32) * x2 (ix2 n q) := by
  rw [body_eq]
  refine (DenseBlock.matmul_zero_apply (K := 20000) (N := 64) (Q := 64)
    Cert.KernelIdeal.Gen.dot_S20000x64_S64x64_S20000x64_1_0_0_1_n_n_wf _ _ p q).trans ?_
  refine Finset.sum_congr rfl fun n _ => ?_
  show max (x0 (ix2 p n) + broadcastTo S20000x64 x1 _ (ix2 p n)) _ * x2 (ix2 n q) = _
  rw [broadcastTo_apply x1 _ (ix2 p n) (ix2 (0 : Fin 1) n) (fun a => by
    match a with
    | ⟨0, _⟩ => rfl
    | ⟨1, _⟩ => rfl)]
  rfl

/-- Where each window's block sits at grid point `t`: the feature and the result blocks at row block `t`, the bias
    row and the weight matrix whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem point_lt (t : Fin cfg1.N) : t.val < 5 := lt_of_lt_of_eq t.isLt N_1

/-- The feature block at point `t` is rows `20000 t …` of the aggregated features. -/
theorem feature_block (c : Dev nD) (t : Fin cfg1.N) (y : S20000x64.Idx) (k : S100000x64.Idx)
    (hk0 : (k 0).val = t.val * 20000 + (y 0).val) (hk1 : (k 1).val = (y 1).val) :
    (iblk1 V c 0 t : Vec Ideal S20000x64 .f32) y = (V c main_v41 : S100000x64.Idx → Elt Ideal .f32) k := by
  obtain ⟨e0, e1, -⟩ := block_index t
  unfold iblk1
  rw [View.read_apply]
  show V c main_v41 _ = V c main_v41 _
  refine congrArg _ (funext fun a => Fin.ext ?_)
  match a with
  | ⟨0, _⟩ => show win1_0.index t (0 : Fin 2) * 20000 + 1 * (y 0).val = (k 0).val; rw [e0, hk0]; omega
  | ⟨1, _⟩ => show win1_0.index t (1 : Fin 2) * 64 + 1 * (y 1).val = (k 1).val; rw [e1, hk1]; omega

/-- The bias block at every point is the bias row. -/
theorem bias_block (c : Dev nD) (t : Fin cfg1.N) (y : S1x64.Idx) :
    (iblk1 V c 1 t : Vec Ideal S1x64 .f32) y = (V c main_v28 : S1x64.Idx → Elt Ideal .f32) y := by
  obtain ⟨-, -, e2, e3, -⟩ := block_index t
  unfold iblk1
  rw [View.read_apply]
  show V c main_v28 _ = V c main_v28 _
  refine congrArg _ (funext fun a => Fin.ext ?_)
  match a with
  | ⟨0, _⟩ => show win1_1.index t (0 : Fin 2) * 1 + 1 * (y 0).val = (y 0).val; rw [e2]; omega
  | ⟨1, _⟩ => show win1_1.index t (1 : Fin 2) * 64 + 1 * (y 1).val = (y 1).val; rw [e3]; omega

/-- The weight block at every point is the weight matrix. -/
theorem weight_block (c : Dev nD) (t : Fin cfg1.N) (y : S64x64.Idx) :
    (iblk1 V c 2 t : Vec Ideal S64x64 .f32) y = (V c main_arg4 : S64x64.Idx → Elt Ideal .f32) y := by
  obtain ⟨-, -, -, -, e4, e5, -⟩ := block_index t
  unfold iblk1
  rw [View.read_apply]
  show V c main_arg4 _ = V c main_arg4 _
  refine congrArg _ (funext fun a => Fin.ext ?_)
  match a with
  | ⟨0, _⟩ => show win1_2.index t (0 : Fin 2) * 64 + 1 * (y 0).val = (y 0).val; rw [e4]; omega
  | ⟨1, _⟩ => show win1_2.index t (1 : Fin 2) * 64 + 1 * (y 1).val = (y 1).val; rw [e5]; omega

/-- What point `t` writes back is block `t` of `relu (a + b) · W`. -/
theorem flushed_eq (c : Dev nD) (t : Fin cfg1.N) :
    (dat1 V c).flushed 3 t = ((cfg1.win 3).blk t).view.read (Elt Ideal)
      (Gcn.project (Gcn.biasRelu (V c main_v41) (V c main_v28)) (V c main_arg4)) := by
  show (cfg1.win 3).cut (grid1.coords t) ((dat1 V c).after 3 t) = _
  rw [after1_3]
  unfold out1_3
  rw [View.canon_unit_zero zeros]
  simp only [View.ld_unit_zero (S := S20000x64) zeros, View.ld_unit_zero (S := S1x64) zeros, View.ld_unit_zero (S := S64x64) zeros]
  funext j
  obtain ⟨p, q, rfl⟩ : ∃ (p : Fin 20000) (q : Fin 64), j = ix2 p q := ⟨j 0, j 1, eq_ix2 j⟩
  have ht := point_lt t
  have hp : t.val * 20000 + p.val < 100000 := by have := p.isLt; omega
  show k1_pay1 (iblk1 V c 0 t) (iblk1 V c 1 t) (iblk1 V c 2 t) (ix2 p q)
    = Gcn.project (Gcn.biasRelu (V c main_v41) (V c main_v28)) (V c main_arg4) (((cfg1.win 3).blk t).view.emb (ix2 p q))
  have hemb : ((cfg1.win 3).blk t).view.emb (ix2 p q) = ix2 (⟨t.val * 20000 + p.val, hp⟩ : Fin 100000) q := by
    obtain ⟨-, -, -, -, -, -, e6, e7⟩ := block_index t
    refine funext fun a => Fin.ext ?_
    match a with
    | ⟨0, _⟩ => show win1_3.index t (0 : Fin 2) * 20000 + 1 * p.val = t.val * 20000 + p.val; rw [e6]; omega
    | ⟨1, _⟩ => show win1_3.index t (1 : Fin 2) * 64 + 1 * q.val = q.val; rw [e7]; omega
  rw [hemb]
  refine (block_entry _ _ _ p q).trans ?_
  unfold Gcn.project
  refine Eq.trans ?_ (DenseBlock.dotGeneral_apply_ix2 (K := 100000) (N := 64) (Q := 64)
    Cert.ReferenceIdeal.Gen.dot_S100000x64_S64x64_S100000x64_1_0_0_1_n_n_wf .single _ _ _ q).symm
  refine Finset.sum_congr rfl fun n _ => ?_
  rw [Gcn.biasRelu_apply, feature_block V c t (ix2 p n) (ix2 (⟨t.val * 20000 + p.val, hp⟩ : Fin 100000) n) rfl rfl,
    bias_block V c t (ix2 (0 : Fin 1) n), weight_block V c t (ix2 n q)]

/-- Every row of the result lies in the block of the point its number divided by 20000 names. -/
theorem covered (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 20000 :=
    ⟨⟨(i 0).val / 20000, lt_of_lt_of_eq (show (i 0).val / 20000 < 5 by omega) N_1.symm⟩, rfl⟩
  refine ⟨t, flush1_3 t, ?_⟩
  show i ∈ ((View.whole main_v42).slice (win1_3.rect t)).set
  rw [View.set_slice_whole, Rect.mem_set_unit]
  obtain ⟨-, -, -, -, -, -, e6, e7⟩ := block_index t
  intro a
  match a with
  | ⟨0, _⟩ =>
    show win1_3.index t (0 : Fin 2) * 20000 ≤ (i 0).val ∧ (i 0).val < win1_3.index t (0 : Fin 2) * 20000 + 20000
    rw [e6, ht]; omega
  | ⟨1, _⟩ =>
    show win1_3.index t (1 : Fin 2) * 64 ≤ (i 1).val ∧ (i 1).val < win1_3.index t (1 : Fin 2) * 64 + 64
    rw [e7]; omega

/-- The array this pallas_call leaves: `relu (a + b) · W` of the arrays as the call found them. -/
theorem final (c : Dev nD) :
    (dat1 V c).arrAt 3 cfg1.N = Gcn.project (Gcn.biasRelu (V c main_v41) (V c main_v28)) (V c main_arg4) :=
  (dat1 V c).arrAt_eq_of_cover 3 _ (fun t _ => flushed_eq V c t) covered

end Cert.KernelIdeal.Layer1

end
-- ==== Proof.LayerRegion2.lean ====
/-
  A middle pallas_call (number 2 of the five): bias, relu, then the matrix product, twenty thousand rows at a time.
  Grid point `t` takes rows `20000 t … 20000 t + 19999` of the aggregated features `a`, the bias row `b` and the
  weight matrix `W`, and writes the same rows of `relu (a + b) · W`. Entry `(p, q)` of a block's result is
  `Σ n, max (a (20000 t + p, n) + b (0, n)) 0 · W (n, q)`: entry `(20000 t + p, q)` of the whole
  `relu (a + b) · W`, since both the bias-and-relu step and a row of a product look at one row of `a` only. The five
  blocks tile the rows.
-/
import proofs.«158501_j75230647157513_1_alg».proof.Proof.Gen.KernelIdeal.Frame
import proofs.«158501_j75230647157513_1_alg».proof.Proof.BiasRelu
import proofs.«158501_j75230647157513_1_alg».proof.Proof.LibDenseHost
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer2

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The body's result as vectors: the product of the clamped, biased block with the weight block. -/
theorem body_eq (x0 : Vec Ideal S20000x64 .f32) (x1 : Vec Ideal S1x64 .f32) (x2 : Vec Ideal S64x64 .f32) :
    k2_pay1 (F := Ideal) x0 x1 x2
      = matmul dot_S20000x64_S64x64_S20000x64_1_0_0_1_n_n none
          (truncf .bf16 (maximumf (addf x0 (broadcastTo S20000x64 x1 broadcasts_S1x64_S20000x64))
            (broadcast S20000x64 (Scalar.ofBits .f32 0x00000000#32))) bitsLt_bf16_f32)
          (truncf .bf16 x2 bitsLt_bf16_f32) (constant S20000x64 .f32 0x00000000#32) := by
  unfold k2_pay1
  simp only [shapeCast_self]

/-- Entry `(p, q)` of a block's result. -/
theorem block_entry (x0 : Vec Ideal S20000x64 .f32) (x1 : Vec Ideal S1x64 .f32) (x2 : Vec Ideal S64x64 .f32)
    (p : Fin 20000) (q : Fin 64) :
    k2_pay1 (F := Ideal) x0 x1 x2 (ix2 p q)
      = ∑ n : Fin 64, max (x0 (ix2 p n) + x1 (ix2 (0 : Fin 1) n)) (Ideal.ofBits .f32 0x00000000#32) * x2 (ix2 n q) := by
  rw [body_eq]
  refine (DenseBlock.matmul_zero_apply (K := 20000) (N := 64) (Q := 64)
    Cert.KernelIdeal.Gen.dot_S20000x64_S64x64_S20000x64_1_0_0_1_n_n_wf _ _ p q).trans ?_
  refine Finset.sum_congr rfl fun n _ => ?_
  show max (x0 (ix2 p n) + broadcastTo S20000x64 x1 _ (ix2 p n)) _ * x2 (ix2 n q) = _
  rw [broadcastTo_apply x1 _ (ix2 p n) (ix2 (0 : Fin 1) n) (fun a => by
    match a with
    | ⟨0, _⟩ => rfl
    | ⟨1, _⟩ => rfl)]
  rfl

/-- Where each window's block sits at grid point `t`: the feature and the result blocks at row block `t`, the bias
    row and the weight matrix whole. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem point_lt (t : Fin cfg2.N) : t.val < 5 := lt_of_lt_of_eq t.isLt N_2

/-- The feature block at point `t` is rows `20000 t …` of the aggregated features. -/
theorem feature_block (c : Dev nD) (t : Fin cfg2.N) (y : S20000x64.Idx) (k : S100000x64.Idx)
    (hk0 : (k 0).val = t.val * 20000 + (y 0).val) (hk1 : (k 1).val = (y 1).val) :
    (iblk2 V c 0 t : Vec Ideal S20000x64 .f32) y = (V c main_v54 : S100000x64.Idx → Elt Ideal .f32) k := by
  obtain ⟨e0, e1, -⟩ := block_index t
  unfold iblk2
  rw [View.read_apply]
  show V c main_v54 _ = V c main_v54 _
  refine congrArg _ (funext fun a => Fin.ext ?_)
  match a with
  | ⟨0, _⟩ => show win2_0.index t (0 : Fin 2) * 20000 + 1 * (y 0).val = (k 0).val; rw [e0, hk0]; omega
  | ⟨1, _⟩ => show win2_0.index t (1 : Fin 2) * 64 + 1 * (y 1).val = (k 1).val; rw [e1, hk1]; omega

/-- The bias block at every point is the bias row. -/
theorem bias_block (c : Dev nD) (t : Fin cfg2.N) (y : S1x64.Idx) :
    (iblk2 V c 1 t : Vec Ideal S1x64 .f32) y = (V c main_v28 : S1x64.Idx → Elt Ideal .f32) y := by
  obtain ⟨-, -, e2, e3, -⟩ := block_index t
  unfold iblk2
  rw [View.read_apply]
  show V c main_v28 _ = V c main_v28 _
  refine congrArg _ (funext fun a => Fin.ext ?_)
  match a with
  | ⟨0, _⟩ => show win2_1.index t (0 : Fin 2) * 1 + 1 * (y 0).val = (y 0).val; rw [e2]; omega
  | ⟨1, _⟩ => show win2_1.index t (1 : Fin 2) * 64 + 1 * (y 1).val = (y 1).val; rw [e3]; omega

/-- The weight block at every point is the weight matrix. -/
theorem weight_block (c : Dev nD) (t : Fin cfg2.N) (y : S64x64.Idx) :
    (iblk2 V c 2 t : Vec Ideal S64x64 .f32) y = (V c main_arg4 : S64x64.Idx → Elt Ideal .f32) y := by
  obtain ⟨-, -, -, -, e4, e5, -⟩ := block_index t
  unfold iblk2
  rw [View.read_apply]
  show V c main_arg4 _ = V c main_arg4 _
  refine congrArg _ (funext fun a => Fin.ext ?_)
  match a with
  | ⟨0, _⟩ => show win2_2.index t (0 : Fin 2) * 64 + 1 * (y 0).val = (y 0).val; rw [e4]; omega
  | ⟨1, _⟩ => show win2_2.index t (1 : Fin 2) * 64 + 1 * (y 1).val = (y 1).val; rw [e5]; omega

/-- What point `t` writes back is block `t` of `relu (a + b) · W`. -/
theorem flushed_eq (c : Dev nD) (t : Fin cfg2.N) :
    (dat2 V c).flushed 3 t = ((cfg2.win 3).blk t).view.read (Elt Ideal)
      (Gcn.project (Gcn.biasRelu (V c main_v54) (V c main_v28)) (V c main_arg4)) := by
  show (cfg2.win 3).cut (grid2.coords t) ((dat2 V c).after 3 t) = _
  rw [after2_3]
  unfold out2_3
  rw [View.canon_unit_zero zeros]
  simp only [View.ld_unit_zero (S := S20000x64) zeros, View.ld_unit_zero (S := S1x64) zeros, View.ld_unit_zero (S := S64x64) zeros]
  funext j
  obtain ⟨p, q, rfl⟩ : ∃ (p : Fin 20000) (q : Fin 64), j = ix2 p q := ⟨j 0, j 1, eq_ix2 j⟩
  have ht := point_lt t
  have hp : t.val * 20000 + p.val < 100000 := by have := p.isLt; omega
  show k2_pay1 (iblk2 V c 0 t) (iblk2 V c 1 t) (iblk2 V c 2 t) (ix2 p q)
    = Gcn.project (Gcn.biasRelu (V c main_v54) (V c main_v28)) (V c main_arg4) (((cfg2.win 3).blk t).view.emb (ix2 p q))
  have hemb : ((cfg2.win 3).blk t).view.emb (ix2 p q) = ix2 (⟨t.val * 20000 + p.val, hp⟩ : Fin 100000) q := by
    obtain ⟨-, -, -, -, -, -, e6, e7⟩ := block_index t
    refine funext fun a => Fin.ext ?_
    match a with
    | ⟨0, _⟩ => show win2_3.index t (0 : Fin 2) * 20000 + 1 * p.val = t.val * 20000 + p.val; rw [e6]; omega
    | ⟨1, _⟩ => show win2_3.index t (1 : Fin 2) * 64 + 1 * q.val = q.val; rw [e7]; omega
  rw [hemb]
  refine (block_entry _ _ _ p q).trans ?_
  unfold Gcn.project
  refine Eq.trans ?_ (DenseBlock.dotGeneral_apply_ix2 (K := 100000) (N := 64) (Q := 64)
    Cert.ReferenceIdeal.Gen.dot_S100000x64_S64x64_S100000x64_1_0_0_1_n_n_wf .single _ _ _ q).symm
  refine Finset.sum_congr rfl fun n _ => ?_
  rw [Gcn.biasRelu_apply, feature_block V c t (ix2 p n) (ix2 (⟨t.val * 20000 + p.val, hp⟩ : Fin 100000) n) rfl rfl,
    bias_block V c t (ix2 (0 : Fin 1) n), weight_block V c t (ix2 n q)]

/-- Every row of the result lies in the block of the point its number divided by 20000 names. -/
theorem covered (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ : ∃ t : Fin cfg2.N, t.val = (i 0).val / 20000 :=
    ⟨⟨(i 0).val / 20000, lt_of_lt_of_eq (show (i 0).val / 20000 < 5 by omega) N_2.symm⟩, rfl⟩
  refine ⟨t, flush2_3 t, ?_⟩
  show i ∈ ((View.whole main_v55).slice (win2_3.rect t)).set
  rw [View.set_slice_whole, Rect.mem_set_unit]
  obtain ⟨-, -, -, -, -, -, e6, e7⟩ := block_index t
  intro a
  match a with
  | ⟨0, _⟩ =>
    show win2_3.index t (0 : Fin 2) * 20000 ≤ (i 0).val ∧ (i 0).val < win2_3.index t (0 : Fin 2) * 20000 + 20000
    rw [e6, ht]; omega
  | ⟨1, _⟩ =>
    show win2_3.index t (1 : Fin 2) * 64 ≤ (i 1).val ∧ (i 1).val < win2_3.index t (1 : Fin 2) * 64 + 64
    rw [e7]; omega

/-- The array this pallas_call leaves: `relu (a + b) · W` of the arrays as the call found them. -/
theorem final (c : Dev nD) :
    (dat2 V c).arrAt 3 cfg2.N = Gcn.project (Gcn.biasRelu (V c main_v54) (V c main_v28)) (V c main_arg4) :=
  (dat2 V c).arrAt_eq_of_cover 3 _ (fun t _ => flushed_eq V c t) covered

end Cert.KernelIdeal.Layer2

end
-- ==== Proof.LayerRegion3.lean ====
/-
  A middle pallas_call (number 3 of the five): bias, relu, then the matrix product, twenty thousand rows at a time.
  Grid point `t` takes rows `20000 t … 20000 t + 19999` of the aggregated features `a`, the bias row `b` and the
  weight matrix `W`, and writes the same rows of `relu (a + b) · W`. Entry `(p, q)` of a block's result is
  `Σ n, max (a (20000 t + p, n) + b (0, n)) 0 · W (n, q)`: entry `(20000 t + p, q)` of the whole
  `relu (a + b) · W`, since both the bias-and-relu step and a row of a product look at one row of `a` only. The five
  blocks tile the rows.
-/
import proofs.«158501_j75230647157513_1_alg».proof.Proof.Gen.KernelIdeal.Frame
import proofs.«158501_j75230647157513_1_alg».proof.Proof.BiasRelu
import proofs.«158501_j75230647157513_1_alg».proof.Proof.LibDenseHost
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Layer3

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The body's result as vectors: the product of the clamped, biased block with the weight block. -/
theorem body_eq (x0 : Vec Ideal S20000x64 .f32) (x1 : Vec Ideal S1x64 .f32) (x2 : Vec Ideal S64x64 .f32) :
    k3_pay1 (F := Ideal) x0 x1 x2
      = matmul dot_S20000x64_S64x64_S20000x64_1_0_0_1_n_n none
          (truncf .bf16 (maximumf (addf x0 (broadcastTo S20000x64 x1 broadcasts_S1x64_S20000x64))
            (broadcast S20000x64 (Scalar.ofBits .f32 0x00000000#32))) bitsLt_bf16_f32)
          (truncf .bf16 x2 bitsLt_bf16_f32) (constant S20000x64 .f32 0x00000000#32) := by
  unfold k3_pay1
  simp only [shapeCast_self]

/-- Entry `(p, q)` of a block's result. -/
theorem block_entry (x0 : Vec Ideal S20000x64 .f32) (x1 : Vec Ideal S1x64 .f32) (x2 : Vec Ideal S64x64 .f32)
    (p : Fin 20000) (q : Fin 64) :
    k3_pay1 (F := Ideal) x0 x1 x2 (ix2 p q)
      = ∑ n : Fin 64, max (x0 (ix2 p n) + x1 (ix2 (0 : Fin 1) n)) (Ideal.ofBits .f32 0x00000000#32) * x2 (ix2 n q) := by
  rw [body_eq]
  refine (DenseBlock.matmul_zero_apply (K := 20000) (N := 64) (Q := 64)
    Cert.KernelIdeal.Gen.dot_S20000x64_S64x64_S20000x64_1_0_0_1_n_n_wf _ _ p q).trans ?_
  refine Finset.sum_congr rfl fun n _ => ?_
  show max (x0 (ix2 p n) + broadcastTo S20000x64 x1 _ (ix2 p n)) _ * x2 (ix2 n q) = _
  rw [broadcastTo_apply x1 _ (ix2 p n) (ix2 (0 : Fin 1) n) (fun a => by
    match a with
    | ⟨0, _⟩ => rfl
    | ⟨1, _⟩ => rfl)]
  rfl

/-- Where each window's block sits at grid point `t`: the feature and the result blocks at row block `t`, the bias
    row and the weight matrix whole. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem point_lt (t : Fin cfg3.N) : t.val < 5 := lt_of_lt_of_eq t.isLt N_3

/-- The feature block at point `t` is rows `20000 t …` of the aggregated features. -/
theorem feature_block (c : Dev nD) (t : Fin cfg3.N) (y : S20000x64.Idx) (k : S100000x64.Idx)
    (hk0 : (k 0).val = t.val * 20000 + (y 0).val) (hk1 : (k 1).val = (y 1).val) :
    (iblk3 V c 0 t : Vec Ideal S20000x64 .f32) y = (V c main_v67 : S100000x64.Idx → Elt Ideal .f32) k := by
  obtain ⟨e0, e1, -⟩ := block_index t
  unfold iblk3
  rw [View.read_apply]
  show V c main_v67 _ = V c main_v67 _
  refine congrArg _ (funext fun a => Fin.ext ?_)
  match a with
  | ⟨0, _⟩ => show win3_0.index t (0 : Fin 2) * 20000 + 1 * (y 0).val = (k 0).val; rw [e0, hk0]; omega
  | ⟨1, _⟩ => show win3_0.index t (1 : Fin 2) * 64 + 1 * (y 1).val = (k 1).val; rw [e1, hk1]; omega

/-- The bias block at every point is the bias row. -/
theorem bias_block (c : Dev nD) (t : Fin cfg3.N) (y : S1x64.Idx) :
    (iblk3 V c 1 t : Vec Ideal S1x64 .f32) y = (V c main_v28 : S1x64.Idx → Elt Ideal .f32) y := by
  obtain ⟨-, -, e2, e3, -⟩ := block_index t
  unfold iblk3
  rw [View.read_apply]
  show V c main_v28 _ = V c main_v28 _
  refine congrArg _ (funext fun a => Fin.ext ?_)
  match a with
  | ⟨0, _⟩ => show win3_1.index t (0 : Fin 2) * 1 + 1 * (y 0).val = (y 0).val; rw [e2]; omega
  | ⟨1, _⟩ => show win3_1.index t (1 : Fin 2) * 64 + 1 * (y 1).val = (y 1).val; rw [e3]; omega

/-- The weight block at every point is the weight matrix. -/
theorem weight_block (c : Dev nD) (t : Fin cfg3.N) (y : S64x64.Idx) :
    (iblk3 V c 2 t : Vec Ideal S64x64 .f32) y = (V c main_arg4 : S64x64.Idx → Elt Ideal .f32) y := by
  obtain ⟨-, -, -, -, e4, e5, -⟩ := block_index t
  unfold iblk3
  rw [View.read_apply]
  show V c main_arg4 _ = V c main_arg4 _
  refine congrArg _ (funext fun a => Fin.ext ?_)
  match a with
  | ⟨0, _⟩ => show win3_2.index t (0 : Fin 2) * 64 + 1 * (y 0).val = (y 0).val; rw [e4]; omega
  | ⟨1, _⟩ => show win3_2.index t (1 : Fin 2) * 64 + 1 * (y 1).val = (y 1).val; rw [e5]; omega

/-- What point `t` writes back is block `t` of `relu (a + b) · W`. -/
theorem flushed_eq (c : Dev nD) (t : Fin cfg3.N) :
    (dat3 V c).flushed 3 t = ((cfg3.win 3).blk t).view.read (Elt Ideal)
      (Gcn.project (Gcn.biasRelu (V c main_v67) (V c main_v28)) (V c main_arg4)) := by
  show (cfg3.win 3).cut (grid3.coords t) ((dat3 V c).after 3 t) = _
  rw [after3_3]
  unfold out3_3
  rw [View.canon_unit_zero zeros]
  simp only [View.ld_unit_zero (S := S20000x64) zeros, View.ld_unit_zero (S := S1x64) zeros, View.ld_unit_zero (S := S64x64) zeros]
  funext j
  obtain ⟨p, q, rfl⟩ : ∃ (p : Fin 20000) (q : Fin 64), j = ix2 p q := ⟨j 0, j 1, eq_ix2 j⟩
  have ht := point_lt t
  have hp : t.val * 20000 + p.val < 100000 := by have := p.isLt; omega
  show k3_pay1 (iblk3 V c 0 t) (iblk3 V c 1 t) (iblk3 V c 2 t) (ix2 p q)
    = Gcn.project (Gcn.biasRelu (V c main_v67) (V c main_v28)) (V c main_arg4) (((cfg3.win 3).blk t).view.emb (ix2 p q))
  have hemb : ((cfg3.win 3).blk t).view.emb (ix2 p q) = ix2 (⟨t.val * 20000 + p.val, hp⟩ : Fin 100000) q := by
    obtain ⟨-, -, -, -, -, -, e6, e7⟩ := block_index t
    refine funext fun a => Fin.ext ?_
    match a with
    | ⟨0, _⟩ => show win3_3.index t (0 : Fin 2) * 20000 + 1 * p.val = t.val * 20000 + p.val; rw [e6]; omega
    | ⟨1, _⟩ => show win3_3.index t (1 : Fin 2) * 64 + 1 * q.val = q.val; rw [e7]; omega
  rw [hemb]
  refine (block_entry _ _ _ p q).trans ?_
  unfold Gcn.project
  refine Eq.trans ?_ (DenseBlock.dotGeneral_apply_ix2 (K := 100000) (N := 64) (Q := 64)
    Cert.ReferenceIdeal.Gen.dot_S100000x64_S64x64_S100000x64_1_0_0_1_n_n_wf .single _ _ _ q).symm
  refine Finset.sum_congr rfl fun n _ => ?_
  rw [Gcn.biasRelu_apply, feature_block V c t (ix2 p n) (ix2 (⟨t.val * 20000 + p.val, hp⟩ : Fin 100000) n) rfl rfl,
    bias_block V c t (ix2 (0 : Fin 1) n), weight_block V c t (ix2 n q)]

/-- Every row of the result lies in the block of the point its number divided by 20000 names. -/
theorem covered (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 20000 :=
    ⟨⟨(i 0).val / 20000, lt_of_lt_of_eq (show (i 0).val / 20000 < 5 by omega) N_3.symm⟩, rfl⟩
  refine ⟨t, flush3_3 t, ?_⟩
  show i ∈ ((View.whole main_v68).slice (win3_3.rect t)).set
  rw [View.set_slice_whole, Rect.mem_set_unit]
  obtain ⟨-, -, -, -, -, -, e6, e7⟩ := block_index t
  intro a
  match a with
  | ⟨0, _⟩ =>
    show win3_3.index t (0 : Fin 2) * 20000 ≤ (i 0).val ∧ (i 0).val < win3_3.index t (0 : Fin 2) * 20000 + 20000
    rw [e6, ht]; omega
  | ⟨1, _⟩ =>
    show win3_3.index t (1 : Fin 2) * 64 ≤ (i 1).val ∧ (i 1).val < win3_3.index t (1 : Fin 2) * 64 + 64
    rw [e7]; omega

/-- The array this pallas_call leaves: `relu (a + b) · W` of the arrays as the call found them. -/
theorem final (c : Dev nD) :
    (dat3 V c).arrAt 3 cfg3.N = Gcn.project (Gcn.biasRelu (V c main_v67) (V c main_v28)) (V c main_arg4) :=
  (dat3 V c).arrAt_eq_of_cover 3 _ (fun t _ => flushed_eq V c t) covered

end Cert.KernelIdeal.Layer3

end
-- ==== Proof.OutputRegion.lean ====
/-
  The last pallas_call: bias and relu, twenty thousand rows at a time. Grid point `t` takes rows
  `20000 t … 20000 t + 19999` of the aggregated features `a` and the bias row `b`, and writes the same rows of
  `relu (a + b)`: entry `(p, n)` of a block's result is `max (a (20000 t + p, n) + b (0, n)) 0`, entry
  `(20000 t + p, n)` of the whole. The five blocks tile the rows.
-/
import proofs.«158501_j75230647157513_1_alg».proof.Proof.Gen.KernelIdeal.Frame
import proofs.«158501_j75230647157513_1_alg».proof.Proof.BiasRelu
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Output

open Cert.KernelIdeal Cert.KernelIdeal.Gen

variable (V : (c : Dev nD) → (b : Ref sig .tc) → Buf (Elt Ideal) ((c : Thread nD τ).loc b))

theorem zeros : (![0, 0] : Fin 2 → Nat) = fun _ => 0 := funext fun a => by fin_cases a <;> rfl

/-- The body's result as vectors: the clamped, biased block. -/
theorem body_eq (x0 : Vec Ideal S20000x64 .f32) (x1 : Vec Ideal S1x64 .f32) :
    k4_pay1 (F := Ideal) x0 x1
      = maximumf (addf x0 (broadcastTo S20000x64 x1 broadcasts_S1x64_S20000x64))
          (broadcast S20000x64 (Scalar.ofBits .f32 0x00000000#32)) := by
  unfold k4_pay1
  simp only [shapeCast_self]

/-- Entry `(p, n)` of a block's result. -/
theorem block_entry (x0 : Vec Ideal S20000x64 .f32) (x1 : Vec Ideal S1x64 .f32) (p : Fin 20000) (n : Fin 64) :
    k4_pay1 (F := Ideal) x0 x1 (ix2 p n)
      = max (x0 (ix2 p n) + x1 (ix2 (0 : Fin 1) n)) (Ideal.ofBits .f32 0x00000000#32) := by
  rw [body_eq]
  show max (x0 (ix2 p n) + broadcastTo S20000x64 x1 _ (ix2 p n)) _ = _
  rw [broadcastTo_apply x1 _ (ix2 p n) (ix2 (0 : Fin 1) n) (fun a => by
    match a with
    | ⟨0, _⟩ => rfl
    | ⟨1, _⟩ => rfl)]
  rfl

/-- Where each window's block sits at grid point `t`: the feature and the result blocks at row block `t`, the bias
    row whole. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem point_lt (t : Fin cfg4.N) : t.val < 5 := lt_of_lt_of_eq t.isLt N_4

/-- The feature block at point `t` is rows `20000 t …` of the aggregated features. -/
theorem feature_block (c : Dev nD) (t : Fin cfg4.N) (y : S20000x64.Idx) (k : S100000x64.Idx)
    (hk0 : (k 0).val = t.val * 20000 + (y 0).val) (hk1 : (k 1).val = (y 1).val) :
    (iblk4 V c 0 t : Vec Ideal S20000x64 .f32) y = (V c main_v80 : S100000x64.Idx → Elt Ideal .f32) k := by
  obtain ⟨e0, e1, -⟩ := block_index t
  unfold iblk4
  rw [View.read_apply]
  show V c main_v80 _ = V c main_v80 _
  refine congrArg _ (funext fun a => Fin.ext ?_)
  match a with
  | ⟨0, _⟩ => show win4_0.index t (0 : Fin 2) * 20000 + 1 * (y 0).val = (k 0).val; rw [e0, hk0]; omega
  | ⟨1, _⟩ => show win4_0.index t (1 : Fin 2) * 64 + 1 * (y 1).val = (k 1).val; rw [e1, hk1]; omega

/-- The bias block at every point is the bias row. -/
theorem bias_block (c : Dev nD) (t : Fin cfg4.N) (y : S1x64.Idx) :
    (iblk4 V c 1 t : Vec Ideal S1x64 .f32) y = (V c main_v28 : S1x64.Idx → Elt Ideal .f32) y := by
  obtain ⟨-, -, e2, e3, -⟩ := block_index t
  unfold iblk4
  rw [View.read_apply]
  show V c main_v28 _ = V c main_v28 _
  refine congrArg _ (funext fun a => Fin.ext ?_)
  match a with
  | ⟨0, _⟩ => show win4_1.index t (0 : Fin 2) * 1 + 1 * (y 0).val = (y 0).val; rw [e2]; omega
  | ⟨1, _⟩ => show win4_1.index t (1 : Fin 2) * 64 + 1 * (y 1).val = (y 1).val; rw [e3]; omega

/-- What point `t` writes back is block `t` of `relu (a + b)`. -/
theorem flushed_eq (c : Dev nD) (t : Fin cfg4.N) :
    (dat4 V c).flushed 2 t = ((cfg4.win 2).blk t).view.read (Elt Ideal) (Gcn.biasRelu (V c main_v80) (V c main_v28)) := by
  show (cfg4.win 2).cut (grid4.coords t) ((dat4 V c).after 2 t) = _
  rw [after4_2]
  unfold out4_2
  rw [View.canon_unit_zero zeros]
  simp only [View.ld_unit_zero (S := S20000x64) zeros, View.ld_unit_zero (S := S1x64) zeros]
  funext j
  obtain ⟨p, n, rfl⟩ : ∃ (p : Fin 20000) (n : Fin 64), j = ix2 p n := ⟨j 0, j 1, eq_ix2 j⟩
  have ht := point_lt t
  have hp : t.val * 20000 + p.val < 100000 := by have := p.isLt; omega
  show k4_pay1 (iblk4 V c 0 t) (iblk4 V c 1 t) (ix2 p n)
    = Gcn.biasRelu (V c main_v80) (V c main_v28) (((cfg4.win 2).blk t).view.emb (ix2 p n))
  have hemb : ((cfg4.win 2).blk t).view.emb (ix2 p n) = ix2 (⟨t.val * 20000 + p.val, hp⟩ : Fin 100000) n := by
    obtain ⟨-, -, -, -, e4, e5⟩ := block_index t
    refine funext fun a => Fin.ext ?_
    match a with
    | ⟨0, _⟩ => show win4_2.index t (0 : Fin 2) * 20000 + 1 * p.val = t.val * 20000 + p.val; rw [e4]; omega
    | ⟨1, _⟩ => show win4_2.index t (1 : Fin 2) * 64 + 1 * n.val = n.val; rw [e5]; omega
  rw [hemb]
  refine (block_entry _ _ p n).trans ?_
  rw [Gcn.biasRelu_apply, feature_block V c t (ix2 p n) (ix2 (⟨t.val * 20000 + p.val, hp⟩ : Fin 100000) n) rfl rfl,
    bias_block V c t (ix2 (0 : Fin 1) n)]

/-- Every row of the result lies in the block of the point its number divided by 20000 names. -/
theorem covered (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 20000 :=
    ⟨⟨(i 0).val / 20000, lt_of_lt_of_eq (show (i 0).val / 20000 < 5 by omega) N_4.symm⟩, rfl⟩
  refine ⟨t, flush4_2 t, ?_⟩
  show i ∈ ((View.whole main_v81).slice (win4_2.rect t)).set
  rw [View.set_slice_whole, Rect.mem_set_unit]
  obtain ⟨-, -, -, -, e4, e5⟩ := block_index t
  intro a
  match a with
  | ⟨0, _⟩ =>
    show win4_2.index t (0 : Fin 2) * 20000 ≤ (i 0).val ∧ (i 0).val < win4_2.index t (0 : Fin 2) * 20000 + 20000
    rw [e4, ht]; omega
  | ⟨1, _⟩ =>
    show win4_2.index t (1 : Fin 2) * 64 ≤ (i 1).val ∧ (i 1).val < win4_2.index t (1 : Fin 2) * 64 + 64
    rw [e5]; omega

/-- The array the last pallas_call leaves: `relu (a + b)` of the arrays as the call found them. -/
theorem final (c : Dev nD) : (dat4 V c).arrAt 2 cfg4.N = Gcn.biasRelu (V c main_v80) (V c main_v28) :=
  (dat4 V c).arrAt_eq_of_cover 2 _ (fun t _ => flushed_eq V c t) covered

end Cert.KernelIdeal.Output

end
-- ==== Proof.HostStretch0.lean ====
/-
  The host operations before the first pallas_call. From the argument arrays they make the source and target vectors
  of the 1,700,000 edges (`Gcn.src`, `Gcn.dst` of the edge list), the edge weights (`Gcn.weight` of those) and the
  bias vector as one row, and they leave the features and the weight matrix as they were.
-/
import proofs.«158501_j75230647157513_1_alg».proof.Proof.Gen.KernelIdeal.Launch
import proofs.«158501_j75230647157513_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Stretch0

open Cert.KernelIdeal Cert.KernelIdeal.Gen

variable {F : FTy → Type} [FloatOps F]

set_option maxHeartbeats 4000000 in
theorem makes_src (X : Valuation τ sig (Elt F)) :
    after (hostOps0 (F := F)) X (Proc.devRef .tc main_v3) = Gcn.src (X (Proc.devRef .tc main_arg1)) := by
  after_results_simp
  rfl

set_option maxHeartbeats 4000000 in
theorem makes_dst (X : Valuation τ sig (Elt F)) :
    after (hostOps0 (F := F)) X (Proc.devRef .tc main_v6) = Gcn.dst (X (Proc.devRef .tc main_arg1)) := by
  after_results_simp
  rfl

set_option maxHeartbeats 4000000 in
theorem makes_weight (X : Valuation τ sig (Elt F)) :
    after (hostOps0 (F := F)) X (Proc.devRef .tc main_v27)
      = Gcn.weight (Gcn.src (X (Proc.devRef .tc main_arg1))) (Gcn.dst (X (Proc.devRef .tc main_arg1))) := by
  after_results_simp
  rfl

set_option maxHeartbeats 4000000 in
theorem makes_bias (X : Valuation τ sig (Elt F)) :
    after (hostOps0 (F := F)) X (Proc.devRef .tc main_v28)
      = shapeCast S1x64 (X (Proc.devRef .tc main_arg5)) Cert.KernelIdeal.Gen.shapeCasts_S64_S1x64 := by
  after_results_simp
  rfl

theorem keeps_features (X : Valuation τ sig (Elt F)) :
    after (hostOps0 (F := F)) X (Proc.devRef .tc main_arg0) = X (Proc.devRef .tc main_arg0) := by after_results
theorem keeps_matrix (X : Valuation τ sig (Elt F)) :
    after (hostOps0 (F := F)) X (Proc.devRef .tc main_arg4) = X (Proc.devRef .tc main_arg4) := by after_results

end Cert.KernelIdeal.Stretch0

end
-- ==== Proof.HostStretch1.lean ====
/-
  The host operations before pallas_call 1: one aggregation. Whatever the buffers hold when they start, they leave
  in the aggregated-features buffer the aggregation `Gcn.agg` of the held source and target vectors, the held edge
  weights and the held product, and they leave the source and target vectors, the edge weights, the bias row and
  the weight matrix as they were: they write none of them.
-/
import proofs.«158501_j75230647157513_1_alg».proof.Proof.Gen.KernelIdeal.Launch
import proofs.«158501_j75230647157513_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Stretch1

open Cert.KernelIdeal Cert.KernelIdeal.Gen

variable {F : FTy → Type} [FloatOps F]

set_option maxHeartbeats 4000000 in
/-- The aggregated features after the stretch. -/
theorem aggregate (X : Valuation τ sig (Elt F)) :
    after (hostOps1 (F := F)) X (Proc.devRef .tc main_v41)
      = Gcn.agg (X (Proc.devRef .tc main_v3)) (X (Proc.devRef .tc main_v6)) (X (Proc.devRef .tc main_v27))
          (X (Proc.devRef .tc main_v29)) := by
  after_results_simp
  rfl

theorem keeps_src (X : Valuation τ sig (Elt F)) :
    after (hostOps1 (F := F)) X (Proc.devRef .tc main_v3) = X (Proc.devRef .tc main_v3) := by after_results
theorem keeps_dst (X : Valuation τ sig (Elt F)) :
    after (hostOps1 (F := F)) X (Proc.devRef .tc main_v6) = X (Proc.devRef .tc main_v6) := by after_results
theorem keeps_weight (X : Valuation τ sig (Elt F)) :
    after (hostOps1 (F := F)) X (Proc.devRef .tc main_v27) = X (Proc.devRef .tc main_v27) := by after_results
theorem keeps_bias (X : Valuation τ sig (Elt F)) :
    after (hostOps1 (F := F)) X (Proc.devRef .tc main_v28) = X (Proc.devRef .tc main_v28) := by after_results
theorem keeps_matrix (X : Valuation τ sig (Elt F)) :
    after (hostOps1 (F := F)) X (Proc.devRef .tc main_arg4) = X (Proc.devRef .tc main_arg4) := by after_results

end Cert.KernelIdeal.Stretch1

end
-- ==== Proof.HostStretch2.lean ====
/-
  The host operations before pallas_call 2: one aggregation. Whatever the buffers hold when they start, they leave
  in the aggregated-features buffer the aggregation `Gcn.agg` of the held source and target vectors, the held edge
  weights and the held product, and they leave the source and target vectors, the edge weights, the bias row and
  the weight matrix as they were: they write none of them.
-/
import proofs.«158501_j75230647157513_1_alg».proof.Proof.Gen.KernelIdeal.Launch
import proofs.«158501_j75230647157513_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Stretch2

open Cert.KernelIdeal Cert.KernelIdeal.Gen

variable {F : FTy → Type} [FloatOps F]

set_option maxHeartbeats 4000000 in
/-- The aggregated features after the stretch. -/
theorem aggregate (X : Valuation τ sig (Elt F)) :
    after (hostOps2 (F := F)) X (Proc.devRef .tc main_v54)
      = Gcn.agg (X (Proc.devRef .tc main_v3)) (X (Proc.devRef .tc main_v6)) (X (Proc.devRef .tc main_v27))
          (X (Proc.devRef .tc main_v42)) := by
  after_results_simp
  rfl

theorem keeps_src (X : Valuation τ sig (Elt F)) :
    after (hostOps2 (F := F)) X (Proc.devRef .tc main_v3) = X (Proc.devRef .tc main_v3) := by after_results
theorem keeps_dst (X : Valuation τ sig (Elt F)) :
    after (hostOps2 (F := F)) X (Proc.devRef .tc main_v6) = X (Proc.devRef .tc main_v6) := by after_results
theorem keeps_weight (X : Valuation τ sig (Elt F)) :
    after (hostOps2 (F := F)) X (Proc.devRef .tc main_v27) = X (Proc.devRef .tc main_v27) := by after_results
theorem keeps_bias (X : Valuation τ sig (Elt F)) :
    after (hostOps2 (F := F)) X (Proc.devRef .tc main_v28) = X (Proc.devRef .tc main_v28) := by after_results
theorem keeps_matrix (X : Valuation τ sig (Elt F)) :
    after (hostOps2 (F := F)) X (Proc.devRef .tc main_arg4) = X (Proc.devRef .tc main_arg4) := by after_results

end Cert.KernelIdeal.Stretch2

end
-- ==== Proof.HostStretch3.lean ====
/-
  The host operations before pallas_call 3: one aggregation. Whatever the buffers hold when they start, they leave
  in the aggregated-features buffer the aggregation `Gcn.agg` of the held source and target vectors, the held edge
  weights and the held product, and they leave the source and target vectors, the edge weights, the bias row and
  the weight matrix as they were: they write none of them.
-/
import proofs.«158501_j75230647157513_1_alg».proof.Proof.Gen.KernelIdeal.Launch
import proofs.«158501_j75230647157513_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Stretch3

open Cert.KernelIdeal Cert.KernelIdeal.Gen

variable {F : FTy → Type} [FloatOps F]

set_option maxHeartbeats 4000000 in
/-- The aggregated features after the stretch. -/
theorem aggregate (X : Valuation τ sig (Elt F)) :
    after (hostOps3 (F := F)) X (Proc.devRef .tc main_v67)
      = Gcn.agg (X (Proc.devRef .tc main_v3)) (X (Proc.devRef .tc main_v6)) (X (Proc.devRef .tc main_v27))
          (X (Proc.devRef .tc main_v55)) := by
  after_results_simp
  rfl

theorem keeps_src (X : Valuation τ sig (Elt F)) :
    after (hostOps3 (F := F)) X (Proc.devRef .tc main_v3) = X (Proc.devRef .tc main_v3) := by after_results
theorem keeps_dst (X : Valuation τ sig (Elt F)) :
    after (hostOps3 (F := F)) X (Proc.devRef .tc main_v6) = X (Proc.devRef .tc main_v6) := by after_results
theorem keeps_weight (X : Valuation τ sig (Elt F)) :
    after (hostOps3 (F := F)) X (Proc.devRef .tc main_v27) = X (Proc.devRef .tc main_v27) := by after_results
theorem keeps_bias (X : Valuation τ sig (Elt F)) :
    after (hostOps3 (F := F)) X (Proc.devRef .tc main_v28) = X (Proc.devRef .tc main_v28) := by after_results
theorem keeps_matrix (X : Valuation τ sig (Elt F)) :
    after (hostOps3 (F := F)) X (Proc.devRef .tc main_arg4) = X (Proc.devRef .tc main_arg4) := by after_results

end Cert.KernelIdeal.Stretch3

end
-- ==== Proof.HostStretch4.lean ====
/-
  The host operations before pallas_call 4: one aggregation. Whatever the buffers hold when they start, they leave
  in the aggregated-features buffer the aggregation `Gcn.agg` of the held source and target vectors, the held edge
  weights and the held product, and they leave the source and target vectors, the edge weights, the bias row and
  the weight matrix as they were: they write none of them.
-/
import proofs.«158501_j75230647157513_1_alg».proof.Proof.Gen.KernelIdeal.Launch
import proofs.«158501_j75230647157513_1_alg».proof.Proof.Spec
import Idealize.ShloMosaic.Lib.StableHlo.Run

noncomputable section

open Idealize.ShloMosaic Idealize.ShloMosaic.TcCoe Idealize.SL.Sem Idealize.ShloMosaic.StableHlo

namespace Cert.KernelIdeal.Stretch4

open Cert.KernelIdeal Cert.KernelIdeal.Gen

variable {F : FTy → Type} [FloatOps F]

set_option maxHeartbeats 4000000 in
/-- The aggregated features after the stretch. -/
theorem aggregate (X : Valuation τ sig (Elt F)) :
    after (hostOps4 (F := F)) X (Proc.devRef .tc main_v80)
      = Gcn.agg (X (Proc.devRef .tc main_v3)) (X (Proc.devRef .tc main_v6)) (X (Proc.devRef .tc main_v27))
          (X (Proc.devRef .tc main_v68)) := by
  after_results_simp
  rfl

theorem keeps_src (X : Valuation τ sig (Elt F)) :
    after (hostOps4 (F := F)) X (Proc.devRef .tc main_v3) = X (Proc.devRef .tc main_v3) := by after_results
theorem keeps_dst (X : Valuation τ sig (Elt F)) :
    after (hostOps4 (F := F)) X (Proc.devRef .tc main_v6) = X (Proc.devRef .tc main_v6) := by after_results
theorem keeps_weight (X : Valuation τ sig (Elt F)) :
    after (hostOps4 (F := F)) X (Proc.devRef .tc main_v27) = X (Proc.devRef .tc main_v27) := by after_results
theorem keeps_bias (X : Valuation τ sig (Elt F)) :
    after (hostOps4 (F := F)) X (Proc.devRef .tc main_v28) = X (Proc.devRef .tc main_v28) := by after_results
theorem keeps_matrix (X : Valuation τ sig (Elt F)) :
    after (hostOps4 (F := F)) X (Proc.devRef .tc main_arg4) = X (Proc.devRef .tc main_arg4) := by after_results

end Cert.KernelIdeal.Stretch4

end
-- ==== Proof.Chain.lean ====
/-
  The kernel program's buffers from the launch to the return. The program alternates host operations and
  pallas_calls; the contents at each boundary are a fold from the launch memory. Two things are followed through
  the fold. First, five buffers are made once by the first host operations and never written again: the source and
  target vectors of the edges, the edge weights, the bias as one row, and the weight matrix (an argument); every later
  boundary finds them as they were made. Second, the feature buffers: the first pallas_call leaves `x · W`; each host
  stretch aggregates the product it finds; each middle pallas_call leaves `relu (a + b) · W` of the aggregate it
  finds; the last leaves `relu (a + b)`. Composed, the result buffer ends holding four layers applied to the
  features: `Gcn.stack` of the arguments.
-/
import proofs.«158501_j75230647157513_1_alg».proof.Proof.Gen.KernelIdeal.Frame
import proofs.«158501_j75230647157513_1_alg».proof.Proof.BiasRelu
import proofs.«158501_j75230647157513_1_alg».proof.Proof.ProjectRegion
import proofs.«158501_j75230647157513_1_alg».proof.Proof.LayerRegion1
import proofs.«158501_j75230647157513_1_alg».proof.Proof.LayerRegion2
import proofs.«158501_j75230647157513_1_alg».proof.Proof.LayerRegion3
import proofs.«158501_j75230647157513_1_alg».proof.Proof.OutputRegion
import proofs.«158501_j75230647157513_1_alg».proof.Proof.HostStretch0
import proofs.«158501_j75230647157513_1_alg».proof.Proof.HostStretch1
import proofs.«158501_j75230647157513_1_alg».proof.Proof.HostStretch2
import proofs.«158501_j75230647157513_1_alg».proof.Proof.HostStretch3
import proofs.«158501_j75230647157513_1_alg».proof.Proof.HostStretch4

noncomputable section

open Idealize.ShloMosaic Idealize.ShloMosaic.TcCoe Idealize.SL.Sem
open Idealize.ShloMosaic.Pipeline (Dat)

namespace Cert.KernelIdeal.Chain

open Cert.KernelIdeal Cert.KernelIdeal.Gen

variable (m : (ℓ : Loc nD τ sig) → Buf (Elt Ideal) ℓ) (ρ : Dev nD → PrngReg)

/-- The source vector of the edges, from the edge list as launched. -/
abbrev srcs (c : Dev nD) := Gcn.src (F := Ideal) (m ((c : Thread nD τ).loc main_arg1))
/-- The target vector of the edges. -/
abbrev dsts (c : Dev nD) := Gcn.dst (F := Ideal) (m ((c : Thread nD τ).loc main_arg1))
/-- The edge weights. -/
abbrev weights (c : Dev nD) := Gcn.weight (F := Ideal) (srcs m c) (dsts m c)
/-- The bias as one row. -/
abbrev bias (c : Dev nD) := Gcn.biasRow (F := Ideal) (m ((c : Thread nD τ).loc main_arg5))

/-- A valuation holds the five shared buffers at the values the first host operations give them. -/
structure Shared (c : Dev nD) (X : Valuation τ sig (Elt Ideal)) : Prop where
  src : X (Proc.devRef .tc main_v3) = srcs m c
  dst : X (Proc.devRef .tc main_v6) = dsts m c
  weight : X (Proc.devRef .tc main_v27) = weights m c
  bias : X (Proc.devRef .tc main_v28) = bias m c
  matrix : X (Proc.devRef .tc main_arg4) = m ((c : Thread nD τ).loc main_arg4)

/-- One aggregation of a product `h` over the launched edges. -/
abbrev aggregated (c : Dev nD) (h : (⟨Cert.ReferenceIdeal.S100000x64, .f32⟩ : BufTy).Contents (Elt Ideal)) :=
  Gcn.agg (srcs m c) (dsts m c) (weights m c) h

/-- The product the first pallas_call leaves. -/
abbrev product0 (c : Dev nD) := Gcn.project (F := Ideal) (m ((c : Thread nD τ).loc main_arg0)) (m ((c : Thread nD τ).loc main_arg4))
/-- The product a middle pallas_call leaves, from the product before it. -/
abbrev productNext (c : Dev nD) (h : (⟨Cert.ReferenceIdeal.S100000x64, .f32⟩ : BufTy).Contents (Elt Ideal)) :=
  Gcn.project (Gcn.biasRelu (aggregated m c h) (bias m c)) (m ((c : Thread nD τ).loc main_arg4))

/-! ## The shared buffers at every boundary -/

/-- After the first host operations. -/
theorem shared1 (c : Dev nD) : Shared m c (W1 m ρ c) where
  src := Stretch0.makes_src (W0 m ρ c)
  dst := Stretch0.makes_dst (W0 m ρ c)
  weight := Stretch0.makes_weight (W0 m ρ c)
  bias := (Stretch0.makes_bias (W0 m ρ c)).trans (Gcn.reshape_eq_biasRow _ _)
  matrix := Stretch0.keeps_matrix (W0 m ρ c)

/-- After pallas_call 0: it writes none of them (the weight matrix is an input window's array). -/
theorem shared2 (c : Dev nD) : Shared m c (W2 m ρ c) :=
  have h := shared1 m ρ c
  { src := (W2_of_ne m ρ c main_v3 (by decide)).trans h.src
    dst := (W2_of_ne m ρ c main_v6 (by decide)).trans h.dst
    weight := (W2_of_ne m ρ c main_v27 (by decide)).trans h.weight
    bias := (W2_of_ne m ρ c main_v28 (by decide)).trans h.bias
    matrix := ((W2_arr m ρ c 1).trans (((dat0 (V1 m ρ) c).arrAt_in 1 rfl _).trans (A_eq0 (V1 m ρ) c 1))).trans h.matrix }

/-- The shared buffers after the host operations before pallas_call 1. -/
theorem shared3 (c : Dev nD) : Shared m c (W3 m ρ c) :=
  have h := shared2 m ρ c
  { src := (Stretch1.keeps_src (W2 m ρ c)).trans h.src
    dst := (Stretch1.keeps_dst (W2 m ρ c)).trans h.dst
    weight := (Stretch1.keeps_weight (W2 m ρ c)).trans h.weight
    bias := (Stretch1.keeps_bias (W2 m ρ c)).trans h.bias
    matrix := (Stretch1.keeps_matrix (W2 m ρ c)).trans h.matrix }

/-- After pallas_call 1. -/
theorem shared4 (c : Dev nD) : Shared m c (W4 m ρ c) :=
  have h := shared3 m ρ c
  { src := (W4_of_ne m ρ c main_v3 (by decide)).trans h.src
    dst := (W4_of_ne m ρ c main_v6 (by decide)).trans h.dst
    weight := (W4_of_ne m ρ c main_v27 (by decide)).trans h.weight
    bias := ((W4_arr m ρ c 1).trans (((dat1 (V3 m ρ) c).arrAt_in 1 rfl _).trans (A_eq1 (V3 m ρ) c 1))).trans h.bias
    matrix := ((W4_arr m ρ c 2).trans (((dat1 (V3 m ρ) c).arrAt_in 2 rfl _).trans (A_eq1 (V3 m ρ) c 2))).trans h.matrix }

/-- The shared buffers after the host operations before pallas_call 2. -/
theorem shared5 (c : Dev nD) : Shared m c (W5 m ρ c) :=
  have h := shared4 m ρ c
  { src := (Stretch2.keeps_src (W4 m ρ c)).trans h.src
    dst := (Stretch2.keeps_dst (W4 m ρ c)).trans h.dst
    weight := (Stretch2.keeps_weight (W4 m ρ c)).trans h.weight
    bias := (Stretch2.keeps_bias (W4 m ρ c)).trans h.bias
    matrix := (Stretch2.keeps_matrix (W4 m ρ c)).trans h.matrix }

/-- After pallas_call 2. -/
theorem shared6 (c : Dev nD) : Shared m c (W6 m ρ c) :=
  have h := shared5 m ρ c
  { src := (W6_of_ne m ρ c main_v3 (by decide)).trans h.src
    dst := (W6_of_ne m ρ c main_v6 (by decide)).trans h.dst
    weight := (W6_of_ne m ρ c main_v27 (by decide)).trans h.weight
    bias := ((W6_arr m ρ c 1).trans (((dat2 (V5 m ρ) c).arrAt_in 1 rfl _).trans (A_eq2 (V5 m ρ) c 1))).trans h.bias
    matrix := ((W6_arr m ρ c 2).trans (((dat2 (V5 m ρ) c).arrAt_in 2 rfl _).trans (A_eq2 (V5 m ρ) c 2))).trans h.matrix }

/-- The shared buffers after the host operations before pallas_call 3. -/
theorem shared7 (c : Dev nD) : Shared m c (W7 m ρ c) :=
  have h := shared6 m ρ c
  { src := (Stretch3.keeps_src (W6 m ρ c)).trans h.src
    dst := (Stretch3.keeps_dst (W6 m ρ c)).trans h.dst
    weight := (Stretch3.keeps_weight (W6 m ρ c)).trans h.weight
    bias := (Stretch3.keeps_bias (W6 m ρ c)).trans h.bias
    matrix := (Stretch3.keeps_matrix (W6 m ρ c)).trans h.matrix }

/-- After pallas_call 3. -/
theorem shared8 (c : Dev nD) : Shared m c (W8 m ρ c) :=
  have h := shared7 m ρ c
  { src := (W8_of_ne m ρ c main_v3 (by decide)).trans h.src
    dst := (W8_of_ne m ρ c main_v6 (by decide)).trans h.dst
    weight := (W8_of_ne m ρ c main_v27 (by decide)).trans h.weight
    bias := ((W8_arr m ρ c 1).trans (((dat3 (V7 m ρ) c).arrAt_in 1 rfl _).trans (A_eq3 (V7 m ρ) c 1))).trans h.bias
    matrix := ((W8_arr m ρ c 2).trans (((dat3 (V7 m ρ) c).arrAt_in 2 rfl _).trans (A_eq3 (V7 m ρ) c 2))).trans h.matrix }

/-- The shared buffers after the host operations before pallas_call 4. -/
theorem shared9 (c : Dev nD) : Shared m c (W9 m ρ c) :=
  have h := shared8 m ρ c
  { src := (Stretch4.keeps_src (W8 m ρ c)).trans h.src
    dst := (Stretch4.keeps_dst (W8 m ρ c)).trans h.dst
    weight := (Stretch4.keeps_weight (W8 m ρ c)).trans h.weight
    bias := (Stretch4.keeps_bias (W8 m ρ c)).trans h.bias
    matrix := (Stretch4.keeps_matrix (W8 m ρ c)).trans h.matrix }

/-! ## The feature buffers at every boundary -/

/-- Pallas_call 0 leaves the product of the launched features and weight matrix. -/
theorem value2 (c : Dev nD) : W2 m ρ c (Proc.devRef .tc main_v29) = product0 m c :=
  (W2_arr m ρ c 2).trans ((Project.final (V1 m ρ) c).trans
    (congrArg₂ Gcn.project (Stretch0.keeps_features (W0 m ρ c)) (shared1 m ρ c).matrix))

/-- The host operations before pallas_call 1 aggregate it. -/
theorem value3 (c : Dev nD) : W3 m ρ c (Proc.devRef .tc main_v41) = aggregated m c (product0 m c) :=
  (Stretch1.aggregate (W2 m ρ c)).trans (by
    rw [(shared2 m ρ c).src, (shared2 m ρ c).dst, (shared2 m ρ c).weight, value2 m ρ c])

/-- Pallas_call 1 leaves the next product. -/
theorem value4 (c : Dev nD) : W4 m ρ c (Proc.devRef .tc main_v42) = productNext m c (product0 m c) :=
  (W4_arr m ρ c 3).trans ((Layer1.final (V3 m ρ) c).trans
    (congrArg₂ Gcn.project (congrArg₂ Gcn.biasRelu (value3 m ρ c) (shared3 m ρ c).bias) (shared3 m ρ c).matrix))

theorem value5 (c : Dev nD) : W5 m ρ c (Proc.devRef .tc main_v54) = aggregated m c (productNext m c (product0 m c)) :=
  (Stretch2.aggregate (W4 m ρ c)).trans (by
    rw [(shared4 m ρ c).src, (shared4 m ρ c).dst, (shared4 m ρ c).weight, value4 m ρ c])

theorem value6 (c : Dev nD) : W6 m ρ c (Proc.devRef .tc main_v55) = productNext m c (productNext m c (product0 m c)) :=
  (W6_arr m ρ c 3).trans ((Layer2.final (V5 m ρ) c).trans
    (congrArg₂ Gcn.project (congrArg₂ Gcn.biasRelu (value5 m ρ c) (shared5 m ρ c).bias) (shared5 m ρ c).matrix))

theorem value7 (c : Dev nD) :
    W7 m ρ c (Proc.devRef .tc main_v67) = aggregated m c (productNext m c (productNext m c (product0 m c))) :=
  (Stretch3.aggregate (W6 m ρ c)).trans (by
    rw [(shared6 m ρ c).src, (shared6 m ρ c).dst, (shared6 m ρ c).weight, value6 m ρ c])

theorem value8 (c : Dev nD) :
    W8 m ρ c (Proc.devRef .tc main_v68) = productNext m c (productNext m c (productNext m c (product0 m c))) :=
  (W8_arr m ρ c 3).trans ((Layer3.final (V7 m ρ) c).trans
    (congrArg₂ Gcn.project (congrArg₂ Gcn.biasRelu (value7 m ρ c) (shared7 m ρ c).bias) (shared7 m ρ c).matrix))

theorem value9 (c : Dev nD) :
    W9 m ρ c (Proc.devRef .tc main_v80)
      = aggregated m c (productNext m c (productNext m c (productNext m c (product0 m c)))) :=
  (Stretch4.aggregate (W8 m ρ c)).trans (by
    rw [(shared8 m ρ c).src, (shared8 m ρ c).dst, (shared8 m ρ c).weight, value8 m ρ c])

/-- The result buffer at the return: four layers applied to the launched features. -/
theorem result (c : Dev nD) :
    W10 m ρ c (Proc.devRef .tc main_v81)
      = Gcn.stack (m ((c : Thread nD τ).loc main_arg0)) (m ((c : Thread nD τ).loc main_arg1))
          (m ((c : Thread nD τ).loc main_arg4)) (m ((c : Thread nD τ).loc main_arg5)) :=
  (W10_arr m ρ c 2).trans ((Output.final (V9 m ρ) c).trans
    ((congrArg₂ Gcn.biasRelu (value9 m ρ c) (shared9 m ρ c).bias).trans (by
      unfold Gcn.stack Gcn.layer
      rfl)))

end Cert.KernelIdeal.Chain

end
-- ==== Proof.KernelRun.lean ====
/-
  The kernel program's run with its result named. Every weakly fair execution of the program terminates without a
  fault; the final memory holds every unscoped buffer at the last boundary's contents; read at the result buffer
  that is four layers applied to the launched features (`Chain.result`), and read at an argument it is the argument
  as launched.
-/
import proofs.«158501_j75230647157513_1_alg».proof.Proof.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The run: the result buffer ends at the stack of the launched arguments, the arguments unchanged. -/
theorem run : θ_run defs (onTc (τ := τ) (main (F := Ideal))) ⟨m, fun _ => 0, ρ⟩ (fun r => ∀ c : Dev nD,
      r.2.mem ((c.tc : Thread nD τ).loc main_v81)
        = Gcn.stack (m ((c.tc : Thread nD τ).loc main_arg0)) (m ((c.tc : Thread nD τ).loc main_arg1))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨(h c _ (mem_uc main_v81 (by decide))).trans (Chain.result m ρ c),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c)⟩)

end Cert.KernelIdeal.Named

end
-- ==== Proof.lean ====
/-
  A four-layer graph convolution with shared weights, as a kernel program and as a host reference, computes one
  function of its arguments over the extended reals.

  With a self loop added at every node, an edge `e` from `src e` to `dst e` carries the weight
  `deg(src e)^(-1/2) · deg(dst e)^(-1/2)`, `deg` the in-degree. One layer sends the node features `x` to
  `relu (agg (x · W) + b)`, where `agg h` sums, at every node, the rows `h (src e)` of the edges into it, each times
  its weight. The reference applies the layer four times with host operations only. The kernel program keeps the
  edge lists, the weights and the aggregation on the host, and computes the matrix products and the bias-and-relu
  steps in five pallas_calls over blocks of twenty thousand rows: `x · W`; three times `relu (a + b) · W` of the
  aggregate `a` before it; and last `relu (a + b)`. A row of a product, and a row of `relu (a + b)`, depends on the same
  row of the left operand only, so each blockwise result is the whole-array one (the region modules); the host
  operations between the calls are the reference's own, applied to equal values (the stretch modules); composed along
  the program (`Chain`) the result is `Gcn.stack` of the arguments, which is what the reference's operations
  compose to as well (`RefStack`). No law of arithmetic is used beyond a sum of 64 products being the same sum on
  both sides, so the precondition is not opened.
-/
import proofs.«158501_j75230647157513_1_alg».proof.Defs
import proofs.«158501_j75230647157513_1_alg».proof.Proof.Gen.Kernel
import proofs.«158501_j75230647157513_1_alg».proof.Proof.Gen.Kernel.Skeleton
import proofs.«158501_j75230647157513_1_alg».proof.Proof.Gen.Kernel.Launch
import proofs.«158501_j75230647157513_1_alg».proof.Proof.Gen.Kernel.Points
import proofs.«158501_j75230647157513_1_alg».proof.Proof.Gen.Kernel.Frame
import proofs.«158501_j75230647157513_1_alg».proof.Proof.Gen.KernelIdeal
import proofs.«158501_j75230647157513_1_alg».proof.Proof.Gen.KernelIdeal.Skeleton
import proofs.«158501_j75230647157513_1_alg».proof.Proof.Gen.KernelIdeal.Launch
import proofs.«158501_j75230647157513_1_alg».proof.Proof.Gen.KernelIdeal.Points
import proofs.«158501_j75230647157513_1_alg».proof.Proof.Gen.KernelIdeal.Frame
import proofs.«158501_j75230647157513_1_alg».proof.Proof.Gen.ReferenceIdeal
import proofs.«158501_j75230647157513_1_alg».proof.Proof.Gen.Pre_finite_inputs
import proofs.«158501_j75230647157513_1_alg».proof.Proof.Gen.ReferenceIdeal.Run
import proofs.«158501_j75230647157513_1_alg».proof.Proof.RefStack
import proofs.«158501_j75230647157513_1_alg».proof.Proof.KernelRun
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the four-layer stack of the arguments in their result buffer: the kernel program by its
    run read along its boundaries, the reference by its operations' composed term; the arguments agree. -/
theorem algebraic : Cert.algebraic_KernelIdeal_ReferenceIdeal := by
  intro m ρ m' ρ' _ hagree
  refine ⟨fun c => Cert.Gcn.stack (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.Gcn.reference_eq, (hagree c).1, (hagree c).2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
